-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x128 : Shape := ⟨3, ![16, 2048, 128]⟩
abbrev S_ : Shape := ⟨0, ![]⟩

class Facts : Prop where
  bcast_S_S16x2048x128 : S_.BroadcastsInDim S16x2048x128 (![] : Fin 0 → Fin S16x2048x128.rank)
  reducesTo_S16x2048x128_S_d0_1_2 : S16x2048x128.ReducesTo [0, 1, 2] S_
  h_S_ : 0 < S_.numel

variable [Facts]

def fn {F : FTy → Type} [FloatOps F] (main_arg0 : FVec F S16x2048x128 .f32) (main_arg1 : FVec F S16x2048x128 .f32) : IVec S_ 1 :=
  let main_v0 : FVec F S16x2048x128 .f32 := Host.absf main_arg0
  let main_cst : FVec F S_ .f32 := constant S_ .f32 0x7F800000#32
  let main_v1 : FVec F S16x2048x128 .f32 := broadcastInDim S16x2048x128 ![] bcast_S_S16x2048x128 main_cst
  let main_v2 : IVec S16x2048x128 1 := cmpf .olt main_v0 main_v1
  let main_c : IVec S_ 1 := constantI S_ 1 1#1
  let main_v3 : IVec S_ 1 := (fun x v => Host.reduce IntOp.andi x v reducesTo_S16x2048x128_S_d0_1_2 h_S_) main_v2 main_c
  let main_v4 : FVec F S16x2048x128 .f32 := Host.absf main_arg1
  let main_cst_0 : FVec F S_ .f32 := constant S_ .f32 0x7F800000#32
  let main_v5 : FVec F S16x2048x128 .f32 := broadcastInDim S16x2048x128 ![] bcast_S_S16x2048x128 main_cst_0
  let main_v6 : IVec S16x2048x128 1 := cmpf .olt main_v4 main_v5
  let main_c_1 : IVec S_ 1 := constantI S_ 1 1#1
  let main_v7 : IVec S_ 1 := (fun x v => Host.reduce IntOp.andi x v reducesTo_S16x2048x128_S_d0_1_2 h_S_) main_v6 main_c_1
  let main_v8 : IVec S_ 1 := andi main_v3 main_v7
  main_v8
-- ==== Kernel.lean ====
abbrev S16x2048x128 : Shape := ⟨3, ![16, 2048, 128]⟩
abbrev S16x2048x2048 : Shape := ⟨3, ![16, 2048, 2048]⟩
abbrev S1x2048x128 : Shape := ⟨3, ![1, 2048, 128]⟩
abbrev S1x2048x2048 : Shape := ⟨3, ![1, 2048, 2048]⟩
abbrev S2048x128 : Shape := ⟨2, ![2048, 128]⟩
abbrev S2048 : Shape := ⟨1, ![2048]⟩
abbrev S2048x1 : Shape := ⟨2, ![2048, 1]⟩
abbrev S2048x2048 : Shape := ⟨2, ![2048, 2048]⟩
abbrev S1x2048 : Shape := ⟨2, ![1, 2048]⟩

abbrev nBuf : Space → Nat
  | .hbm => 3
  | .vmem => 6
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x2048, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x2048, .f32⟩
  | .local _ .vmem, ⟨5, _⟩ => ⟨S1x2048x2048, .f32⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  reduces_S2048x128_S2048 : S2048x128.Reduces [1] S2048
  shapeCasts_S2048_S2048x1 : S2048.ShapeCasts S2048x1
  transposes_S2048x1_p1_0_S1x2048 : S2048x1.Transposes [1, 0] S1x2048
  broadcasts_S2048x1_S2048x2048 : S2048x1.Broadcasts S2048x2048
  broadcasts_S1x2048_S2048x2048 : S1x2048.Broadcasts S2048x2048
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  shapeCasts_S2048x2048_S1x2048x2048 : S2048x2048.ShapeCasts S1x2048x2048
  dot_S2048x128_S2048x128_S2048x2048_1_1_0_0_n_n_wf : DotDims.WF S2048x128 S2048x128 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S16x2048x128.size a
  hwx0_0 : ∀ i : grid0.Coords, EltTy.bits .f32 = 32 ∨ (Rect.block (s := S16x2048x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S16x2048x128.size a
  hwx0_1 : ∀ i : grid0.Coords, EltTy.bits .f32 = 32 ∨ (Rect.block (s := S16x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x2048.size a ≤ S16x2048x2048.size a
  hwx0_2 : ∀ i : grid0.Coords, EltTy.bits .f32 = 32 ∨ (Rect.block (s := S16x2048x2048) S1x2048x2048.size (cc0_transform_2 i) (hinb0_2 i)).WholeWords (EltTy.packing .f32)

variable [Facts₀]

def dot_S2048x128_S2048x128_S2048x2048_1_1_0_0_n_n : DotDims S2048x128 S2048x128 S2048x2048 where
  lhsContracting := [1]
  rhsContracting := [1]
  lhsNonContracting := [0]
  rhsNonContracting := [0]
  lhsBatch := []
  rhsBatch := []
  wf := dot_S2048x128_S2048x128_S2048x2048_1_1_0_0_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x2048x128 : Shape := ⟨3, ![16, 2048, 128]⟩
abbrev S_ : Shape := ⟨0, ![]⟩
abbrev S16x2048 : Shape := ⟨2, ![16, 2048]⟩
abbrev S16x2048x2048 : Shape := ⟨3, ![16, 2048, 2048]⟩
abbrev S16x2048x1 : Shape := ⟨3, ![16, 2048, 1]⟩
abbrev S16x1x2048 : Shape := ⟨3, ![16, 1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x128, .f32⟩
  | .hbm, ⟨3, _⟩ => ⟨S_, .f32⟩
  | .hbm, ⟨4, _⟩ => ⟨S16x2048, .f32⟩
  | .hbm, ⟨5, _⟩ => ⟨S16x2048x128, .f32⟩
  | .hbm, ⟨6, _⟩ => ⟨S_, .f32⟩
  | .hbm, ⟨7, _⟩ => ⟨S16x2048, .f32⟩
  | .hbm, ⟨8, _⟩ => ⟨S16x2048x2048, .f32⟩
  | .hbm, ⟨9, _⟩ => ⟨S16x2048x1, .f32⟩
  | .hbm, ⟨10, _⟩ => ⟨S16x1x2048, .f32⟩
  | .hbm, ⟨11, _⟩ => ⟨S16x2048x2048, .f32⟩
  | .hbm, ⟨12, _⟩ => ⟨S16x2048x2048, .f32⟩
  | .hbm, ⟨13, _⟩ => ⟨S16x2048x2048, .f32⟩
  | .hbm, ⟨14, _⟩ => ⟨S_, .f32⟩
  | .hbm, ⟨15, _⟩ => ⟨S16x2048x2048, .f32⟩
  | .hbm, ⟨16, _⟩ => ⟨S16x2048x2048, .f32⟩
  | .hbm, ⟨17, _⟩ => ⟨S16x2048x2048, .f32⟩
  | .hbm, ⟨18, _⟩ => ⟨S_, .f32⟩
  | .hbm, ⟨19, _⟩ => ⟨S16x2048x2048, .f32⟩
  | .hbm, ⟨20, _⟩ => ⟨S16x2048x2048, .f32⟩
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  reducesTo_S16x2048x128_S16x2048_d2 : S16x2048x128.ReducesTo [2] S16x2048
  h_S_ : 0 < S_.numel
  bcast_S16x2048_S16x2048x1_0_1 : S16x2048.BroadcastsInDim S16x2048x1 (![0, 1] : Fin 2 → Fin S16x2048x1.rank)
  bcast_S16x2048_S16x1x2048_0_2 : S16x2048.BroadcastsInDim S16x1x2048 (![0, 2] : Fin 2 → Fin S16x1x2048.rank)
  bcast_S16x2048x1_S16x2048x2048_0_1_2 : S16x2048x1.BroadcastsInDim S16x2048x2048 (![0, 1, 2] : Fin 3 → Fin S16x2048x2048.rank)
  bcast_S16x1x2048_S16x2048x2048_0_1_2 : S16x1x2048.BroadcastsInDim S16x2048x2048 (![0, 1, 2] : Fin 3 → Fin S16x2048x2048.rank)
  bcast_S_S16x2048x2048 : S_.BroadcastsInDim S16x2048x2048 (![] : Fin 0 → Fin S16x2048x2048.rank)
  dot_S16x2048x128_S16x2048x128_S16x2048x2048_2_2_1_1_0_0_wf : DotDims.WF S16x2048x128 S16x2048x128 S16x2048x2048 [2] [2] [1] [1] [0] [0]

variable [Facts₀]

def dot_S16x2048x128_S16x2048x128_S16x2048x2048_2_2_1_1_0_0 : DotDims S16x2048x128 S16x2048x128 S16x2048x2048 where
  lhsContracting := [2]
  rhsContracting := [2]
  lhsNonContracting := [1]
  rhsNonContracting := [1]
  lhsBatch := [0]
  rhsBatch := [0]
  wf := dot_S16x2048x128_S16x2048x128_S16x2048x2048_2_2_1_1_0_0_wf

class Facts : Prop extends Facts₀ where

variable [Facts]
-- ==== Proof.CostSpec.lean ====
/-
  The pairwise squared-distance cost as ONE function of the two argument arrays.

  For batch `b`, row `i` of `x` and row `j` of `y` the entry is
      max (‖x[b,i]‖² + ‖y[b,j]‖² − 2 · ⟨x[b,i], y[b,j]⟩) 0,
  the two squared norms and the inner product being sums over the 128 features. The entry depends on the arrays
  only through those two rows: `entry` is that function of two rows, `cost` reads it at every `(b, i, j)`.
  The factor 2 is the float word both programs carry, read as the extended real it denotes.
  Every operation here is one on the extended reals; no law that would need finite entries is used anywhere.
-/
import Idealize.ShloMosaic.PureOps.Ideal
import Idealize.ShloMosaic.Lib.ValueIdx

noncomputable section

open Idealize.ShloMosaic Idealize.ShloMosaic.ValueIdx
open scoped BigOperators

namespace Cert.PairCost

/-- One entry from the two rows it depends on: `max (Σ u² + Σ v² − 2 · Σ u·v) 0`. -/
def entry (u v : Fin 128 → EReal) : EReal :=
  max (((∑ k : Fin 128, u k * u k) + ∑ k : Fin 128, v k * v k)
        - Ideal.ofBits .f32 0x40000000#32 * ∑ k : Fin 128, u k * v k) 0

/-- The cost array: entry `(b, i, j)` is `entry` of row `(b, i)` of `x` and row `(b, j)` of `y`. -/
def cost (x y : FVec Ideal ⟨3, ![16, 2048, 128]⟩ .f32) : FVec Ideal ⟨3, ![16, 2048, 2048]⟩ .f32 :=
  fun i => entry (fun k => x (ix3 (i 0) (i 1) k)) (fun k => y (ix3 (i 0) (i 2) k))

/-- `cost` at an index given by its coordinates. -/
theorem cost_ix3 (x y : FVec Ideal ⟨3, ![16, 2048, 128]⟩ .f32) (b : Fin 16) (i j : Fin 2048) :
    cost x y (ix3 b i j) = entry (fun k => x (ix3 b i k)) (fun k => y (ix3 b j k)) := rfl

end Cert.PairCost

end
-- ==== Proof.RefCost.lean ====
/-
  The reference computes `cost`.

  Read one operation at a time, entry `(b, i, j)` of the reference's result is
      max ((0 + Σ_k x[b,i,k]²) + (0 + Σ_k y[b,j,k]²) − 2 · Σ_k x[b,i,k] · y[b,j,k]) 0 :
  the two row sums start from the zero word, which is the extended real `0` and drops out by `0 + s = s`; the
  broadcasts only carry `(b, i)` and `(b, j)` to the rows they name; the contraction runs over the last axis of both
  arrays with `b` shared. That is `entry` of the two rows, term for term.
-/
import proofs.«121734_j18451179503711_2_alg».proof.Proof.Gen.ReferenceIdeal.Read
import proofs.«121734_j18451179503711_2_alg».proof.Proof.CostSpec
import Idealize.ShloMosaic.PureOps.Ideal.Laws

noncomputable section

open Idealize.ShloMosaic Idealize.ShloMosaic.ValueIdx
open scoped BigOperators

namespace Cert.PairCost.Ref

open Cert.ReferenceIdeal Cert.ReferenceIdeal.Read

/-- The reference's last stage, as a function of the two argument arrays, is `cost`. -/
theorem ref_cost (x y : (⟨S16x2048x128, .f32⟩ : BufTy).Contents (Elt Ideal)) :
    val_main_v14 (F := Ideal) x y = cost x y := by
  funext i
  -- the rows the composed index functions name: row (b, i) of x, row (b, j) of y
  have ex : ∀ k : Fin 128, idx_main_v1 (idx_main_v5 (idx_main_v7 i)) k = ix3 (i 0) (i 1) k := fun k =>
    funext fun a => Fin.ext (by match a with | ⟨0, _⟩ => rfl | ⟨1, _⟩ => rfl | ⟨2, _⟩ => rfl)
  have ey : ∀ k : Fin 128, idx_main_v3 (idx_main_v6 (idx_main_v8 i)) k = ix3 (i 0) (i 2) k := fun k =>
    funext fun a => Fin.ext (by match a with | ⟨0, _⟩ => rfl | ⟨1, _⟩ => rfl | ⟨2, _⟩ => rfl)
  have el : ∀ k : Fin 128, lidx_main_v4 i k = ix3 (i 0) (i 1) k := fun k =>
    funext fun a => Fin.ext (by match a with | ⟨0, _⟩ => rfl | ⟨1, _⟩ => rfl | ⟨2, _⟩ => rfl)
  have er : ∀ k : Fin 128, ridx_main_v4 i k = ix3 (i 0) (i 2) k := fun k =>
    funext fun a => Fin.ext (by match a with | ⟨0, _⟩ => rfl | ⟨1, _⟩ => rfl | ⟨2, _⟩ => rfl)
  rw [val_main_v14_apply, val_main_v12_apply, val_main_v9_apply, val_main_v7_apply, val_main_v5_apply, val_main_v1_apply,
    val_main_v8_apply, val_main_v6_apply, val_main_v3_apply, val_main_v11_apply, val_main_v10_apply, val_main_v4_apply,
    val_main_v13_apply]
  simp only [val_main_v0_apply, val_main_v2_apply, val_main_cst_apply, val_main_cst_0_apply, val_main_cst_1_apply,
    val_main_cst_2_apply, ex, ey, el, er, Ideal.ofBits_def, Ideal.addf_def, Ideal.subf_def, Ideal.mulf_def,
    Ideal.maximumf_def, Ideal.ofBits_zero_f32, zero_add]
  rfl

end Cert.PairCost.Ref

end
-- ==== Proof.LibColumnForms.lean ====
/-
  A column vector read at an index.

  Summing a matrix along its rows with the summed axis kept gives a column: the sums, an `[a]` vector, are laid out as
  `[a, 1]`, and the column is then copied along a new second axis to `[a, b]`. Entry `(i, j)` of the result is
  entry `i` of the vector, whatever `j`. The two lemmas below say this one layout step at a time, every index
  written by its coordinates.
-/
import Idealize.ShloMosaic.Lib.Pipeline.Value
import Idealize.ShloMosaic.Lib.ValueIdx

namespace Cert.ColumnForms

open Idealize.ShloMosaic Idealize.ShloMosaic.ValueIdx

variable {α : Type}

/-- A vector `[a]` laid out as a column `[a, 1]` reads, at `(i, u)`, the vector at `i`: the row-major position
    `i · 1 + u` of `(i, u)` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along its unit axis to `[a, b]` reads, at `(i, j)`, the column at `(i, 0)`: the first
    coordinate is kept (also when `a = 1`, where it is `0` anyway), the second is the unit axis's only one. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnForms
-- ==== Proof.KernelEntry.lean ====
/-
  The value the kernel body stores, entry by entry.

  The body holds one batch: a block `X` of 2048 rows of `x` and a block `Y` of 2048 rows of `y`, 128 features each.
  It forms the column of row sums `Σ_k X[p,k]²`, the row of row sums `Σ_k Y[q,k]²` (a column, transposed), copies the
  column along the rows and the row along the columns, adds them, subtracts twice the matrix product `X · Yᵀ` taken
  into a zero accumulator, and clamps at zero. Read at `(p, q)`:
      max (Σ_k X[p,k]² + Σ_k Y[q,k]² − 2 · Σ_k X[p,k] · Y[q,k]) 0,
  which is `entry` of row `p` of `X` and row `q` of `Y`. The lane sums have no initial term (their accumulator is the
  sum's neutral word) and the product's zero accumulator is the extended real `0`; nothing else is used of the numbers.
-/
import proofs.«121734_j18451179503711_2_alg».proof.Proof.Gen.KernelIdeal.Skeleton
import proofs.«121734_j18451179503711_2_alg».proof.Proof.CostSpec
import proofs.«121734_j18451179503711_2_alg».proof.Proof.LibColumnForms
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx
open scoped BigOperators

namespace Cert.PairCost.Body

open Cert.KernelIdeal Cert.KernelIdeal.Gen Cert.ColumnForms

/-- A lane sum of squares: entry `p` of the sum of `w ⊙ w` along the features is `Σ_k w[p,k]²`. -/
theorem sumSq_apply (w : FVec Ideal S2048x128 .f32) (h : S2048x128.Reduces [1] S2048) (hφ : FKind.Formats .f32)
    (hacc : (0x00000000#32 : BitVec 32) = 0x00000000#32) (p : Fin 2048) :
    multiReduction .add [1] S2048 (mulf w w) 0x00000000#32 h hφ hacc (ix1 p) = ∑ k : Fin 128, w (ix2 p k) * w (ix2 p k) := by
  refine (Ideal.multiReduction_add_single (mulf w w) 0x00000000#32 h hφ hacc (ix1 p)).trans ?_
  refine Finset.sum_congr rfl fun k _ => ?_
  have e : h.lift (ix1 p) k = ix2 p k :=
    funext fun a => Fin.ext (by match a with | ⟨0, _⟩ => rfl | ⟨1, _⟩ => rfl)
  rw [e]
  rfl

/-- The product's left operand index at output `(p, q)`: row `p`, -/
theorem lhs_row (i : S2048x2048.Idx) (r : dot_S2048x128_S2048x128_S2048x2048_1_1_0_0_n_n.contr.Idx) : (dot_S2048x128_S2048x128_S2048x2048_1_1_0_0_n_n.lhsIdx i r 0).val = (i 0).val := by
  unfold DotDims.lhsIdx
  rw [dif_neg (show ¬(0 : Fin S2048x128.rank) ∈ dot_S2048x128_S2048x128_S2048x2048_1_1_0_0_n_n.lhsBatch by decide),
    dif_pos (show (0 : Fin S2048x128.rank) ∈ dot_S2048x128_S2048x128_S2048x2048_1_1_0_0_n_n.lhsNonContracting by decide)]
  rfl
/-- at the contracted feature; -/
theorem lhs_feat (i : S2048x2048.Idx) (r : dot_S2048x128_S2048x128_S2048x2048_1_1_0_0_n_n.contr.Idx) : (dot_S2048x128_S2048x128_S2048x2048_1_1_0_0_n_n.lhsIdx i r 1).val = (r ⟨0, by decide⟩).val :=
  dot_S2048x128_S2048x128_S2048x2048_1_1_0_0_n_n.lhsIdx_val_of_single rfl i r
/-- the right operand's: row `q`, -/
theorem rhs_row (i : S2048x2048.Idx) (r : dot_S2048x128_S2048x128_S2048x2048_1_1_0_0_n_n.contr.Idx) : (dot_S2048x128_S2048x128_S2048x2048_1_1_0_0_n_n.rhsIdx i r 0).val = (i 1).val := by
  unfold DotDims.rhsIdx
  rw [dif_neg (show ¬(0 : Fin S2048x128.rank) ∈ dot_S2048x128_S2048x128_S2048x2048_1_1_0_0_n_n.rhsBatch by decide),
    dif_pos (show (0 : Fin S2048x128.rank) ∈ dot_S2048x128_S2048x128_S2048x2048_1_1_0_0_n_n.rhsNonContracting by decide)]
  rfl
/-- at the same feature. -/
theorem rhs_feat (i : S2048x2048.Idx) (r : dot_S2048x128_S2048x128_S2048x2048_1_1_0_0_n_n.contr.Idx) : (dot_S2048x128_S2048x128_S2048x2048_1_1_0_0_n_n.rhsIdx i r 1).val = (r ⟨0, by decide⟩).val :=
  dot_S2048x128_S2048x128_S2048x2048_1_1_0_0_n_n.rhsIdx_val_of_single rfl i r

/-- The matrix product `V · Wᵀ` into a zero accumulator, at `(p, q)`: `Σ_k V[p,k] · W[q,k]`. -/
theorem gram_apply (v w : FVec Ideal S2048x128 .f32) (p q : Fin 2048) :
    matmul dot_S2048x128_S2048x128_S2048x2048_1_1_0_0_n_n (some .fp32) v w (constant (F := Ideal) S2048x2048 .f32 0x00000000#32) (ix2 p q)
      = ∑ k : Fin 128, v (ix2 p k) * w (ix2 q k) := by
  simp only [matmul]
  rw [Ideal.matmul_constant_zero_apply, ← Equiv.sum_comp (ValueIdx.contrEquiv1 dot_S2048x128_S2048x128_S2048x2048_1_1_0_0_n_n 128 rfl rfl).symm]
  refine Finset.sum_congr rfl fun k _ => ?_
  have hk := ValueIdx.contrEquiv1_symm_val dot_S2048x128_S2048x128_S2048x2048_1_1_0_0_n_n 128 rfl rfl k
  have el : dot_S2048x128_S2048x128_S2048x2048_1_1_0_0_n_n.lhsIdx (ix2 p q) ((ValueIdx.contrEquiv1 dot_S2048x128_S2048x128_S2048x2048_1_1_0_0_n_n 128 rfl rfl).symm k) = ix2 p k :=
    funext fun a => Fin.ext (by
      match a with
      | ⟨0, _⟩ => exact lhs_row _ _
      | ⟨1, _⟩ => exact (lhs_feat _ _).trans hk)
  have er : dot_S2048x128_S2048x128_S2048x2048_1_1_0_0_n_n.rhsIdx (ix2 p q) ((ValueIdx.contrEquiv1 dot_S2048x128_S2048x128_S2048x2048_1_1_0_0_n_n 128 rfl rfl).symm k) = ix2 q k :=
    funext fun a => Fin.ext (by
      match a with
      | ⟨0, _⟩ => exact rhs_row _ _
      | ⟨1, _⟩ => exact (rhs_feat _ _).trans hk)
  rw [el, er]

/-- THE BODY'S STORED VALUE at `(u, p, q)` of its `[1, 2048, 2048]` block is `entry` of row `p` of the first loaded
    block and row `q` of the second. -/
theorem pay_entry (x0 x1 : Vec Ideal S1x2048x128 .f32) (u : Fin 1) (p q : Fin 2048) :
    k0_pay1 (F := Ideal) x0 x1 (ix3 u p q)
      = entry (fun k => x0 (ix3 (0 : Fin 1) p k)) (fun k => x1 (ix3 (0 : Fin 1) q k)) := by
  unfold k0_pay1
  dsimp only
  rw [shapeCast_ab_1ab_apply]
  simp only [maximumf_apply, subf_apply, addf_apply, mulf_apply, broadcast_apply]
  rw [broadcastTo_a1_ab_apply, shapeCast_a_a1_apply, sumSq_apply, broadcastTo_1b_ab_apply, transpose_ix2_apply,
    shapeCast_a_a1_apply, sumSq_apply, gram_apply]
  simp only [shapeCast_1ab_ab_apply, Ideal.ofBits_def, Ideal.ofBits_zero_f32]
  rfl

end Cert.PairCost.Body

end
-- ==== Proof.KernelCost.lean ====
/-
  The kernel's result array is `cost` of its two argument arrays.

  The grid has one point per batch. Point `t` stages batch `t` of `x` and of `y` (a `[1, 2048, 128]` block each, at
  block index `(t, 0, 0)`) and writes back block `(t, 0, 0)` of the `[16, 2048, 2048]` result. Row `(0, p, k)` of a
  staged block is therefore row `(t, p, k)` of its array, so what point `t` writes back is batch `t` of `cost`; an
  index `(b, i, j)` of the result lies in the block of point `b` and of no other, and the sixteen blocks fill the
  array. Hence the array ends holding `cost` everywhere.
-/
import proofs.«121734_j18451179503711_2_alg».proof.Proof.Gen.KernelIdeal.Value
import proofs.«121734_j18451179503711_2_alg».proof.Proof.KernelEntry

noncomputable section

open Idealize.ShloMosaic Idealize.ShloMosaic.TcCoe Idealize.SL.Sem Idealize.ShloMosaic.ValueIdx
open Idealize.ShloMosaic.Pipeline (Dat)

namespace Cert.PairCost.Kernel

open Cert.KernelIdeal Cert.KernelIdeal.Gen

variable (m : (ℓ : Loc nD τ sig) → Buf (Elt Ideal) ℓ) (ρ : Dev nD → PrngReg)

theorem hz : (![0, 0, 0] : Fin 3 → Nat) = fun _ => 0 := funext fun a => by fin_cases a <;> rfl

/-- The stored value of a body run on batch `b` of two arrays is batch `b` of their `cost`. -/
theorem pay_cost (X Y : FVec Ideal S16x2048x128 .f32) (x0 x1 : Vec Ideal S1x2048x128 .f32) (b : Fin 16)
    (h0 : ∀ (p : Fin 2048) (k : Fin 128), x0 (ix3 (0 : Fin 1) p k) = X (ix3 b p k))
    (h1 : ∀ (p : Fin 2048) (k : Fin 128), x1 (ix3 (0 : Fin 1) p k) = Y (ix3 b p k))
    (u : Fin 1) (p q : Fin 2048) :
    k0_pay1 (F := Ideal) x0 x1 (ix3 u p q) = cost X Y (ix3 b p q) := by
  rw [Body.pay_entry, cost_ix3]
  simp only [h0, h1]

/-- The printed index maps, decided over the sixteen grid points: every window's block at point `t` is batch `t`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- Row `(0, p, k)` of `x`'s block at point `t` is row `(t, p, k)` of `x`. -/
theorem iblk0_row (c : Dev nD) (t : Fin cfg0.N) (b : Fin 16) (hb : b.val = t.val) (p : Fin 2048) (k : Fin 128) :
    (iblk m c 0 t : Vec Ideal S1x2048x128 .f32) (ix3 (0 : Fin 1) p k)
      = (m ((c : Thread nD τ).loc main_arg0) : S16x2048x128.Idx → Elt Ideal .f32) (ix3 b p k) := by
  obtain ⟨e0, e1, e2, -⟩ := idx_facts t
  unfold iblk
  rw [View.read_apply]
  show V m c main_arg0 _ = m (c.tc.loc main_arg0) _
  unfold V
  refine congrArg (m ((c : Thread nD τ).loc main_arg0) : S16x2048x128.Idx → Elt Ideal .f32) (funext fun a => Fin.ext ?_)
  match a with
  | ⟨0, _⟩ => show win0_0.index t (0 : Fin 3) * 1 + 1 * 0 = b.val; omega
  | ⟨1, _⟩ => show win0_0.index t (1 : Fin 3) * 2048 + 1 * p.val = p.val; omega
  | ⟨2, _⟩ => show win0_0.index t (2 : Fin 3) * 128 + 1 * k.val = k.val; omega

/-- Row `(0, p, k)` of `y`'s block at point `t` is row `(t, p, k)` of `y`. -/
theorem iblk1_row (c : Dev nD) (t : Fin cfg0.N) (b : Fin 16) (hb : b.val = t.val) (p : Fin 2048) (k : Fin 128) :
    (iblk m c 1 t : Vec Ideal S1x2048x128 .f32) (ix3 (0 : Fin 1) p k)
      = (m ((c : Thread nD τ).loc main_arg1) : S16x2048x128.Idx → Elt Ideal .f32) (ix3 b p k) := by
  obtain ⟨-, -, -, e0, e1, e2, -⟩ := idx_facts t
  unfold iblk
  rw [View.read_apply]
  show V m c main_arg1 _ = m (c.tc.loc main_arg1) _
  unfold V
  refine congrArg (m ((c : Thread nD τ).loc main_arg1) : S16x2048x128.Idx → Elt Ideal .f32) (funext fun a => Fin.ext ?_)
  match a with
  | ⟨0, _⟩ => show win0_1.index t (0 : Fin 3) * 1 + 1 * 0 = b.val; omega
  | ⟨1, _⟩ => show win0_1.index t (1 : Fin 3) * 2048 + 1 * p.val = p.val; omega
  | ⟨2, _⟩ => show win0_1.index t (2 : Fin 3) * 128 + 1 * k.val = k.val; omega

/-- WHAT POINT `t` WRITES BACK is block `t` of `cost` of the argument arrays. -/
theorem flushed_cost (c : Dev nD) (t : Fin cfg0.N) :
    (dats m 0 c).flushed 2 t = ((cfg0.win 2).blk t).view.read (Elt Ideal)
      (cost (m ((c : Thread nD τ).loc main_arg0)) (m ((c : Thread nD τ).loc main_arg1))) := by
  rw [Cert.KernelIdeal.Value.flushed2]
  unfold out0_2
  rw [View.canon_unit_zero hz]
  simp only [View.ld_unit_zero (S := S1x2048x128) hz]
  obtain ⟨-, -, -, -, -, -, e0, e1, e2⟩ := idx_facts t
  have hN : grid0.N = 16 := N_0
  have ht : t.val < 16 := by have h : t.val < grid0.N := t.isLt; omega
  funext j
  show k0_pay1 (iblk m c 0 t) (iblk m c 1 t) j
    = cost (m ((c : Thread nD τ).loc main_arg0)) (m ((c : Thread nD τ).loc main_arg1)) (((cfg0.win 2).blk t).view.emb j)
  have hj0 : (j 0).val < 1 := (j 0).isLt
  refine (congrArg (k0_pay1 (iblk m c 0 t) (iblk m c 1 t)) (eq_ix3 j)).trans ?_
  refine (pay_cost _ _ (iblk m c 0 t) (iblk m c 1 t) ⟨t.val, ht⟩ (iblk0_row m c t ⟨t.val, ht⟩ rfl)
    (iblk1_row m c t ⟨t.val, ht⟩ rfl) (j 0) (j 1) (j 2)).trans ?_
  refine congrArg (cost (m ((c : Thread nD τ).loc main_arg0)) (m ((c : Thread nD τ).loc main_arg1))) (funext fun a => Fin.ext ?_)
  match a with
  | ⟨0, _⟩ => show t.val = win0_2.index t (0 : Fin 3) * 1 + 1 * (j 0).val; omega
  | ⟨1, _⟩ => show (j 1).val = win0_2.index t (1 : Fin 3) * 2048 + 1 * (j 1).val; omega
  | ⟨2, _⟩ => show (j 2).val = win0_2.index t (2 : Fin 3) * 2048 + 1 * (j 2).val; omega

/-- An index of the result lies in point `t`'s block iff each coordinate lies in the block's range on its axis. -/
theorem mem_blk (t : Fin cfg0.N) (i : S16x2048x2048.Idx) :
    i ∈ ((cfg0.win 2).blk t).view.set ↔ ∀ a : Fin 3, win0_2.index t a * S1x2048x2048.size a ≤ (i a).val
      ∧ (i a).val < win0_2.index t a * S1x2048x2048.size a + S1x2048x2048.size a := by
  show i ∈ ((View.whole main_v0).slice (win0_2.rect t)).set ↔ _
  rw [View.set_slice_whole, Rect.mem_set_unit]
  exact Iff.rfl

/-- Every index `(b, i, j)` of the result lies in the block of point `b`. -/
theorem cover (i : S16x2048x2048.Idx) :
    ∃ t : Fin cfg0.N, (cfg0.win 2).flush t = true ∧ i ∈ ((cfg0.win 2).blk t).view.set := by
  have hN : grid0.N = 16 := N_0
  have hi0 : (i 0).val < 16 := (i 0).isLt
  have hi1 : (i 1).val < 2048 := (i 1).isLt
  have hi2 : (i 2).val < 2048 := (i 2).isLt
  have hlt : (i 0).val < grid0.N := by omega
  obtain ⟨-, -, -, -, -, -, e0, e1, e2⟩ := idx_facts ⟨(i 0).val, hlt⟩
  have e0' : win0_2.index ⟨(i 0).val, hlt⟩ (0 : Fin 3) = (i 0).val := e0
  refine ⟨⟨(i 0).val, hlt⟩, flush0_2 _, ?_⟩
  rw [mem_blk]
  intro a
  match a with
  | ⟨0, _⟩ =>
    show win0_2.index ⟨(i 0).val, hlt⟩ (0 : Fin 3) * 1 ≤ (i 0).val ∧ (i 0).val < win0_2.index ⟨(i 0).val, hlt⟩ (0 : Fin 3) * 1 + 1
    omega
  | ⟨1, _⟩ =>
    show win0_2.index ⟨(i 0).val, hlt⟩ (1 : Fin 3) * 2048 ≤ (i 1).val ∧ (i 1).val < win0_2.index ⟨(i 0).val, hlt⟩ (1 : Fin 3) * 2048 + 2048
    omega
  | ⟨2, _⟩ =>
    show win0_2.index ⟨(i 0).val, hlt⟩ (2 : Fin 3) * 2048 ≤ (i 2).val ∧ (i 2).val < win0_2.index ⟨(i 0).val, hlt⟩ (2 : Fin 3) * 2048 + 2048
    omega

/-- THE RESULT ARRAY after the run is `cost` of the argument arrays. -/
theorem final_cost (c : Dev nD) : (dats m 0 c).arrAt 2 cfg0.N
    = cost (m ((c : Thread nD τ).loc main_arg0)) (m ((c : Thread nD τ).loc main_arg1)) :=
  (dats m 0 c).arrAt_eq_of_cover 2 _ (fun t _ => flushed_cost m c t) cover

/-- The kernel's run, read: the result array at `cost` of the arguments, the arguments unchanged. -/
theorem run : θ_run defs (onTc (τ := τ) (main (F := Ideal))) ⟨m, fun _ => 0, ρ⟩ fun r => ∀ c : Dev nD,
      r.2.mem ((c : Thread nD τ).loc main_v0)
        = cost (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_cost m c), (h c).2⟩)
    (Cert.KernelIdeal.Value.run_blocks m ρ)

end Cert.PairCost.Kernel

end
-- ==== Proof.lean ====
/-
  The pairwise squared-distance cost kernel against its jnp reference, over the extended reals.

  Both programs compute, for every batch `b`, row `i` of `x` and row `j` of `y`,
      max (‖x[b,i]‖² + ‖y[b,j]‖² − 2 · ⟨x[b,i], y[b,j]⟩) 0
  with the same grouping of the three terms and the same factor 2; they differ only in how the three sums over the
  128 features are taken (lane sums and one matrix product per batch on one side, whole-array sums and a batched
  contraction on the other) and in how the result is tiled (one batch per grid point). Over the extended reals a sum
  is a sum, so both arrays are `PairCost.cost` of the arguments, entry by entry: the reference by reading its
  operations in order (`Ref.ref_cost`), the kernel by reading the stored value of one batch (`Body.pay_entry`) and
  assembling the sixteen batches (`Kernel.run`). No step uses that the inputs are finite.
  The three frames are the programs' runs with the results forgotten; the idealization rewrote nothing.
-/
import proofs.«121734_j18451179503711_2_alg».proof.Defs
import proofs.«121734_j18451179503711_2_alg».proof.Proof.Gen.Kernel
import proofs.«121734_j18451179503711_2_alg».proof.Proof.Gen.Kernel.Skeleton
import proofs.«121734_j18451179503711_2_alg».proof.Proof.Gen.Kernel.Launch
import proofs.«121734_j18451179503711_2_alg».proof.Proof.Gen.Kernel.Points
import proofs.«121734_j18451179503711_2_alg».proof.Proof.Gen.Kernel.Frame
import proofs.«121734_j18451179503711_2_alg».proof.Proof.Gen.KernelIdeal
import proofs.«121734_j18451179503711_2_alg».proof.Proof.Gen.KernelIdeal.Skeleton
import proofs.«121734_j18451179503711_2_alg».proof.Proof.Gen.KernelIdeal.Launch
import proofs.«121734_j18451179503711_2_alg».proof.Proof.Gen.KernelIdeal.Points
import proofs.«121734_j18451179503711_2_alg».proof.Proof.Gen.KernelIdeal.Frame
import proofs.«121734_j18451179503711_2_alg».proof.Proof.Gen.ReferenceIdeal
import proofs.«121734_j18451179503711_2_alg».proof.Proof.Gen.Pre_finite_inputs
import proofs.«121734_j18451179503711_2_alg».proof.Proof.Gen.KernelIdeal.Value
import proofs.«121734_j18451179503711_2_alg».proof.Proof.Gen.ReferenceIdeal.Run
import proofs.«121734_j18451179503711_2_alg».proof.Proof.Gen.ReferenceIdeal.Read
import proofs.«121734_j18451179503711_2_alg».proof.Proof.RefCost
import proofs.«121734_j18451179503711_2_alg».proof.Proof.KernelCost
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run with its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on `x` and `y`, both programs end with `cost x y` in their result arrays. -/
theorem algebraic : Cert.algebraic_KernelIdeal_ReferenceIdeal := by
  intro m ρ m' ρ' _ hagree
  refine ⟨fun c => Cert.PairCost.cost (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.PairCost.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.PairCost.Ref.ref_cost, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
